-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S64 : Shape := ⟨1, ![64]⟩
abbrev S64x2048x1024 : Shape := ⟨3, ![64, 2048, 1024]⟩
abbrev S64x1024x2048 : Shape := ⟨3, ![64, 1024, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S64x2048x1024 : S_.BroadcastsInDim S64x2048x1024 (![] : Fin 0 → Fin S64x2048x1024.rank)
  reducesTo_S64x2048x1024_S_d0_1_2 : S64x2048x1024.ReducesTo [0, 1, 2] S_
  bcast_S_S64x1024x2048 : S_.BroadcastsInDim S64x1024x2048 (![] : Fin 0 → Fin S64x1024x2048.rank)
  reducesTo_S64x1024x2048_S_d0_1_2 : S64x1024x2048.ReducesTo [0, 1, 2] S_

variable [Facts]

def fn_part1 {F : FTy → Type} [FloatOps F] (main_v13 : IVec S_ 1) (main_v16 : IVec S64x1024x2048 1) : IVec S_ 1 :=
  let main_c_5 : IVec S_ 1 := constantI S_ 1 1#1
  let main_v17 : IVec S_ 1 := (fun x v => Host.reduce IntOp.andi x v reducesTo_S64x1024x2048_S_d0_1_2 h_S_) main_v16 main_c_5
  let main_v18 : IVec S_ 1 := andi main_v13 main_v17
  main_v18

def fn {F : FTy → Type} [FloatOps F] (main_arg0 : FVec F S4096x2048 .f32) (main_arg1 : IVec S64 32) (main_arg2 : FVec F S64x2048x1024 .f32) (main_arg3 : FVec F S64x2048x1024 .f32) (main_arg4 : FVec F S64x1024x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S64x2048x1024 .f32 := Host.absf main_arg2
  let main_cst_0 : FVec F S_ .f32 := constant S_ .f32 0x7F800000#32
  let main_v5 : FVec F S64x2048x1024 .f32 := broadcastInDim S64x2048x1024 ![] bcast_S_S64x2048x1024 main_cst_0
  let main_v6 : IVec S64x2048x1024 1 := cmpf .olt main_v4 main_v5
  let main_c_1 : IVec S_ 1 := constantI S_ 1 1#1
  let main_v7 : IVec S_ 1 := (fun x v => Host.reduce IntOp.andi x v reducesTo_S64x2048x1024_S_d0_1_2 h_S_) main_v6 main_c_1
  let main_v8 : IVec S_ 1 := andi main_v3 main_v7
  let main_v9 : FVec F S64x2048x1024 .f32 := Host.absf main_arg3
  let main_cst_2 : FVec F S_ .f32 := constant S_ .f32 0x7F800000#32
  let main_v10 : FVec F S64x2048x1024 .f32 := broadcastInDim S64x2048x1024 ![] bcast_S_S64x2048x1024 main_cst_2
  let main_v11 : IVec S64x2048x1024 1 := cmpf .olt main_v9 main_v10
  let main_c_3 : IVec S_ 1 := constantI S_ 1 1#1
  let main_v12 : IVec S_ 1 := (fun x v => Host.reduce IntOp.andi x v reducesTo_S64x2048x1024_S_d0_1_2 h_S_) main_v11 main_c_3
  let main_v13 : IVec S_ 1 := andi main_v8 main_v12
  let main_v14 : FVec F S64x1024x2048 .f32 := Host.absf main_arg4
  let main_cst_4 : FVec F S_ .f32 := constant S_ .f32 0x7F800000#32
  let main_v15 : FVec F S64x1024x2048 .f32 := broadcastInDim S64x1024x2048 ![] bcast_S_S64x1024x2048 main_cst_4
  let main_v16 : IVec S64x1024x2048 1 := cmpf .olt main_v14 main_v15
  fn_part1 (F := F) main_v13 main_v16
-- ==== Kernel.lean ====
abbrev S4096x2048 : Shape := ⟨2, ![4096, 2048]⟩
abbrev S64 : Shape := ⟨1, ![64]⟩
abbrev S64x2048x1024 : Shape := ⟨3, ![64, 2048, 1024]⟩
abbrev S64x1024x2048 : Shape := ⟨3, ![64, 1024, 2048]⟩
abbrev S64x64x2048 : Shape := ⟨3, ![64, 64, 2048]⟩
abbrev S1x64x2048 : Shape := ⟨3, ![1, 64, 2048]⟩
abbrev S1x2048x512 : Shape := ⟨3, ![1, 2048, 512]⟩
abbrev S1x512x2048 : Shape := ⟨3, ![1, 512, 2048]⟩
abbrev S64x2048 : Shape := ⟨2, ![64, 2048]⟩
abbrev S2048x512 : Shape := ⟨2, ![2048, 512]⟩
abbrev S64x512 : Shape := ⟨2, ![64, 512]⟩
abbrev S512x2048 : Shape := ⟨2, ![512, 2048]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S64, .i32⟩
  | .hbm, ⟨2, _⟩ => ⟨S64x2048x1024, .f32⟩
  | .hbm, ⟨3, _⟩ => ⟨S64x2048x1024, .f32⟩
  | .hbm, ⟨4, _⟩ => ⟨S64x1024x2048, .f32⟩
  | .hbm, ⟨5, _⟩ => ⟨S64x64x2048, .f32⟩
  | .hbm, ⟨6, _⟩ => ⟨S64x64x2048, .f32⟩
  | .hbm, ⟨7, _⟩ => ⟨S4096x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1x64x2048, .f32⟩
  | .local _ .vmem, ⟨9, _⟩ => ⟨S1x64x2048, .f32⟩
  | .local _ .vmem, ⟨10, _⟩ => ⟨S64x2048, .f32⟩
  | .local _ .vmem, ⟨11, _⟩ => ⟨S64x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def k0_cond3 (i : grid0.Coords) : BitVec 1 :=
  let arg1 : BitVec 32 := BitVec.ofNat 32 (i 1).val
  let c1_i32_14 : BitVec 32 := 1#32
  let v23 : BitVec 1 := Scalar.cmpi .eq arg1 c1_i32_14
  let v24 : BitVec 32 := Scalar.extui v23
  let c0_i32_15 : BitVec 32 := 0#32
  let v25 : BitVec 1 := Scalar.cmpi .ne v24 c0_i32_15
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096x2048_S64x64x2048 : S4096x2048.ShapeCasts S64x64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  packedbf16_S64x2048_S64x2048_0_0 : (Rect.unit (s := S64x2048) ![0, 0] S64x2048.size inb_S64x2048_S64x2048_0_0).PackedRows (EltTy.packing .bf16)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S64x2048_S1x64x2048 : S64x2048.ShapeCasts S1x64x2048
  shapeCasts_S64x64x2048_S4096x2048 : S64x64x2048.ShapeCasts S4096x2048
  dot_S64x2048_S2048x512_S64x512_1_0_0_1_n_n_wf : DotDims.WF S64x2048 S2048x512 S64x512 [1] [0] [0] [1] [] []
  dot_S64x512_S512x2048_S64x2048_1_0_0_1_n_n_wf : DotDims.WF S64x512 S512x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S64x64x2048.size a
  hwx0_0 : ∀ i : grid0.Coords, EltTy.bits .f32 = 32 ∨ (Rect.block (s := S64x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S64x2048x1024.size a
  hwx0_1 : ∀ i : grid0.Coords, EltTy.bits .f32 = 32 ∨ (Rect.block (s := S64x2048x1024) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S64x2048x1024.size a
  hwx0_2 : ∀ i : grid0.Coords, EltTy.bits .f32 = 32 ∨ (Rect.block (s := S64x2048x1024) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S64x1024x2048.size a
  hwx0_3 : ∀ i : grid0.Coords, EltTy.bits .f32 = 32 ∨ (Rect.block (s := S64x1024x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x2048.size a ≤ S64x64x2048.size a
  hwx0_4 : ∀ i : grid0.Coords, EltTy.bits .f32 = 32 ∨ (Rect.block (s := S64x64x2048) S1x64x2048.size (cc0_transform_4 i) (hinb0_4 i)).WholeWords (EltTy.packing .f32)

variable [Facts₀]

def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.ofSpec (Memref.whole main_v0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S64 : Shape := ⟨1, ![64]⟩
abbrev S64x2048x1024 : Shape := ⟨3, ![64, 2048, 1024]⟩
abbrev S64x1024x2048 : Shape := ⟨3, ![64, 1024, 2048]⟩
abbrev S64x64x2048 : Shape := ⟨3, ![64, 64, 2048]⟩
abbrev S64x64x1024 : Shape := ⟨3, ![64, 64, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S64, .i32⟩
  | .hbm, ⟨2, _⟩ => ⟨S64x2048x1024, .f32⟩
  | .hbm, ⟨3, _⟩ => ⟨S64x2048x1024, .f32⟩
  | .hbm, ⟨4, _⟩ => ⟨S64x1024x2048, .f32⟩
  | .hbm, ⟨5, _⟩ => ⟨S64x64x2048, .f32⟩
  | .hbm, ⟨6, _⟩ => ⟨S64x64x1024, .f32⟩
  | .hbm, ⟨7, _⟩ => ⟨S64x64x1024, .f32⟩
  | .hbm, ⟨8, _⟩ => ⟨S64x64x1024, .f32⟩
  | .hbm, ⟨9, _⟩ => ⟨S64x64x1024, .f32⟩
  | .hbm, ⟨10, _⟩ => ⟨S_, .f32⟩
  | .hbm, ⟨11, _⟩ => ⟨S64x64x1024, .f32⟩
  | .hbm, ⟨12, _⟩ => ⟨S64x64x1024, .f32⟩
  | .hbm, ⟨13, _⟩ => ⟨S_, .f32⟩
  | .hbm, ⟨14, _⟩ => ⟨S64x64x1024, .f32⟩
  | .hbm, ⟨15, _⟩ => ⟨S64x64x1024, .f32⟩
  | .hbm, ⟨16, _⟩ => ⟨S64x64x1024, .f32⟩
  | .hbm, ⟨17, _⟩ => ⟨S64x64x1024, .f32⟩
  | .hbm, ⟨18, _⟩ => ⟨S64x64x2048, .f32⟩
  | .hbm, ⟨19, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S4096x2048_S64x64x2048 : S4096x2048.ShapeCasts S64x64x2048
  bcast_S_S64x64x1024 : S_.BroadcastsInDim S64x64x1024 (![] : Fin 0 → Fin S64x64x1024.rank)
  shapeCasts_S64x64x2048_S4096x2048 : S64x64x2048.ShapeCasts S4096x2048
  dot_S64x64x2048_S64x2048x1024_S64x64x1024_2_1_1_2_0_0_wf : DotDims.WF S64x64x2048 S64x2048x1024 S64x64x1024 [2] [1] [1] [2] [0] [0]
  dot_S64x64x1024_S64x1024x2048_S64x64x2048_2_1_1_2_0_0_wf : DotDims.WF S64x64x1024 S64x1024x2048 S64x64x2048 [2] [1] [1] [2] [0] [0]

variable [Facts₀]

def dot_S64x64x2048_S64x2048x1024_S64x64x1024_2_1_1_2_0_0 : DotDims S64x64x2048 S64x2048x1024 S64x64x1024 where
  lhsContracting := [2]
  rhsContracting := [1]
  lhsNonContracting := [1]
  rhsNonContracting := [2]
  lhsBatch := [0]
  rhsBatch := [0]
  wf := dot_S64x64x2048_S64x2048x1024_S64x64x1024_2_1_1_2_0_0_wf
def dot_S64x64x1024_S64x1024x2048_S64x64x2048_2_1_1_2_0_0 : DotDims S64x64x1024 S64x1024x2048 S64x64x2048 where
  lhsContracting := [2]
  rhsContracting := [1]
  lhsNonContracting := [1]
  rhsNonContracting := [2]
  lhsBatch := [0]
  rhsBatch := [0]
  wf := dot_S64x64x1024_S64x1024x2048_S64x64x2048_2_1_1_2_0_0_wf

class Facts : Prop extends Facts₀ where

variable [Facts]
-- ==== Proof.Spec.lean ====
/-
  The mixture-of-experts feed-forward as ONE function of the argument arrays, over the extended reals.

  Tokens are laid out contiguously per expert: row `r` of expert `e` is `x[e, r, :]` of the token array seen as
  [64, 64, 2048]. For a weight array `w` of [64, 2048, 1024] the projection of that row on hidden unit `k` is
  `proj x w e r k = ∑ j, x[e, r, j] · w[e, j, k]`; the gated hidden activation is
  `hidden = (g · σ(g)) · u` with `g` the gate projection, `u` the up projection and `σ` the logistic function; the
  result is `out[e, r, d] = ∑ k, hidden[e, r, k] · down[e, k, d]`, the sum over all 1024 hidden units.

  The one algebraic fact used afterwards: a sum over the 1024 hidden units is the sum over the first 512 plus the sum
  over the last 512 (`sum_halves`) — addition of extended reals is commutative and associative, so no finiteness is
  needed.
-/
import Idealize.ShloMosaic.PureOps.Ideal
import Idealize.ShloMosaic.PureOps.Ideal.Laws
import Idealize.ShloMosaic.Lib.ValueIdx

noncomputable section

namespace Cert.Moe

open Idealize.ShloMosaic Idealize.ShloMosaic.ValueIdx

/-- Tokens per expert: [expert, row, model dim]. -/
abbrev SX : Shape := ⟨3, ![64, 64, 2048]⟩
/-- Gate and up weights: [expert, model dim, hidden]. -/
abbrev SW : Shape := ⟨3, ![64, 2048, 1024]⟩
/-- Down weights: [expert, hidden, model dim]. -/
abbrev SD : Shape := ⟨3, ![64, 1024, 2048]⟩

/-- Row `r` of expert `e` projected on hidden unit `k` by the weights `w`. -/
def proj (x : SX.Idx → EReal) (w : SW.Idx → EReal) (e r : Fin 64) (k : Fin 1024) : EReal :=
  ∑ j : Fin 2048, x (ix3 e r j) * w (ix3 e j k)

/-- The gated activation `(g · σ(g)) · u` at hidden unit `k`. -/
def hidden (x : SX.Idx → EReal) (wg wu : SW.Idx → EReal) (e r : Fin 64) (k : Fin 1024) : EReal :=
  proj x wg e r k * Ideal.logistic (proj x wg e r k) * proj x wu e r k

/-- The result: the hidden activations contracted with the down weights over all 1024 hidden units. -/
def out (x : SX.Idx → EReal) (wg wu : SW.Idx → EReal) (wd : SD.Idx → EReal) (i : SX.Idx) : EReal :=
  ∑ k : Fin 1024, hidden x wg wu (i 0) (i 1) k * wd (ix3 (i 0) k (i 2))

/-- Hidden unit `k` of the lower half. -/
abbrev lo (k : Fin 512) : Fin 1024 := ⟨k.val, by have := k.isLt; omega⟩
/-- Hidden unit `512 + k` of the upper half. -/
abbrev hi (k : Fin 512) : Fin 1024 := ⟨512 + k.val, by have := k.isLt; omega⟩

/-- A sum over the 1024 hidden units is the sum over the lower half plus the sum over the upper half. -/
theorem sum_halves (f : Fin 1024 → EReal) :
    ∑ k : Fin 1024, f k = (∑ k : Fin 512, f (lo k)) + ∑ k : Fin 512, f (hi k) :=
  Fin.sum_univ_add (a := 512) (b := 512) f

/-- The result split at hidden unit 512, as the two half sums a two-step accumulation adds up starting from zero. -/
theorem out_eq_halves (x : SX.Idx → EReal) (wg wu : SW.Idx → EReal) (wd : SD.Idx → EReal) (e r : Fin 64) (d : Fin 2048) :
    out x wg wu wd (ix3 e r d)
      = (0 + ∑ k : Fin 512, hidden x wg wu e r (lo k) * wd (ix3 e (lo k) d))
        + ∑ k : Fin 512, hidden x wg wu e r (hi k) * wd (ix3 e (hi k) d) := by
  rw [zero_add]
  exact sum_halves fun k => hidden x wg wu e r k * wd (ix3 e k d)

end Cert.Moe

end
-- ==== Proof.RefValue.lean ====
/-
  The reference computes `Cert.Moe.out`.

  Its three contractions are sums over one contracted axis with the expert axis carried along: at output index
  `(e, r, k)` the first two read `x[e, r, j] · w[e, j, k]` over `j`, which is `Moe.proj`; the last reads
  `h[e, r, k] · down[e, k, d]` over `k`. Between them the reference spells the logistic function as
  `1 / (1 + exp (-g))`, which over the extended reals IS `Ideal.logistic g` (the constant `1.0` denotes the real one).
  The token array enters only through its reshape to [64, 64, 2048], kept here as one opaque array.
-/
import proofs.«148070_j79285096284331_2_alg».proof.Defs
import proofs.«148070_j79285096284331_2_alg».proof.Proof.Gen.ReferenceIdeal.Run
import proofs.«148070_j79285096284331_2_alg».proof.Proof.Gen.ReferenceIdeal.Read
import proofs.«148070_j79285096284331_2_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx

/-- The gate contraction at `(e, r, k)` is the projection of row `r` of expert `e` on hidden unit `k`. -/
theorem gate_eq (x0 : (⟨S4096x2048, .f32⟩ : BufTy).Contents (Elt Ideal)) (w : (⟨S64x2048x1024, .f32⟩ : BufTy).Contents (Elt Ideal))
    (e r : Fin 64) (k : Fin 1024) :
    val_main_v1 (F := Ideal) x0 w (ix3 e r k) = Cert.Moe.proj (val_main_v0 (F := Ideal) x0) w e r k := by
  rw [val_main_v1_apply]
  unfold Cert.Moe.proj
  refine Finset.sum_congr rfl fun j _ => ?_
  have el : lidx_main_v1 (ix3 e r k) j = ix3 e r j :=
    funext fun a => Fin.ext (by match a with | ⟨0, _⟩ => rfl | ⟨1, _⟩ => rfl | ⟨2, _⟩ => rfl)
  have er : ridx_main_v1 (ix3 e r k) j = ix3 e j k :=
    funext fun a => Fin.ext (by match a with | ⟨0, _⟩ => rfl | ⟨1, _⟩ => rfl | ⟨2, _⟩ => rfl)
  rw [el, er]

/-- The up contraction, the same sum over the other weight array. -/
theorem up_eq (x0 : (⟨S4096x2048, .f32⟩ : BufTy).Contents (Elt Ideal)) (w : (⟨S64x2048x1024, .f32⟩ : BufTy).Contents (Elt Ideal))
    (e r : Fin 64) (k : Fin 1024) :
    val_main_v2 (F := Ideal) x0 w (ix3 e r k) = Cert.Moe.proj (val_main_v0 (F := Ideal) x0) w e r k := by
  rw [val_main_v2_apply]
  unfold Cert.Moe.proj
  refine Finset.sum_congr rfl fun j _ => ?_
  have el : lidx_main_v2 (ix3 e r k) j = ix3 e r j :=
    funext fun a => Fin.ext (by match a with | ⟨0, _⟩ => rfl | ⟨1, _⟩ => rfl | ⟨2, _⟩ => rfl)
  have er : ridx_main_v2 (ix3 e r k) j = ix3 e j k :=
    funext fun a => Fin.ext (by match a with | ⟨0, _⟩ => rfl | ⟨1, _⟩ => rfl | ⟨2, _⟩ => rfl)
  rw [el, er]

/-- The gated activation: `g · (1 / (1 + exp (-g)))` times the up projection is `Moe.hidden`. -/
theorem hidden_eq (x0 : (⟨S4096x2048, .f32⟩ : BufTy).Contents (Elt Ideal)) (wg wu : (⟨S64x2048x1024, .f32⟩ : BufTy).Contents (Elt Ideal))
    (e r : Fin 64) (k : Fin 1024) :
    val_main_v4 (F := Ideal) x0 wg wu (ix3 e r k) = Cert.Moe.hidden (val_main_v0 (F := Ideal) x0) wg wu e r k := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, up_eq, gate_eq]
  simp only [Ideal.mulf_def, Ideal.hostDivf_def, Ideal.addf_def, Ideal.hostUnary_exp_def, Ideal.hostNegf_def, Ideal.negf_def,
    Ideal.ofBits_def, Ideal.ofBits_one_f32]
  rfl

/-- The reference's last contraction, as an array of [64, 64, 2048], is `Moe.out` of the reshaped tokens and the three weight arrays. -/
theorem ref_eq_out (x0 : (⟨S4096x2048, .f32⟩ : BufTy).Contents (Elt Ideal)) (wg wu : (⟨S64x2048x1024, .f32⟩ : BufTy).Contents (Elt Ideal))
    (wd : (⟨S64x1024x2048, .f32⟩ : BufTy).Contents (Elt Ideal)) :
    val_main_v5 (F := Ideal) x0 wg wu wd = Cert.Moe.out (val_main_v0 (F := Ideal) x0) wg wu wd := by
  funext i
  obtain ⟨e, r, d, rfl⟩ : ∃ (e r : Fin 64) (d : Fin 2048), i = ix3 e r d := ⟨i 0, i 1, i 2, eq_ix3 i⟩
  rw [val_main_v5_apply]
  show _ = ∑ k : Fin 1024, Cert.Moe.hidden (val_main_v0 (F := Ideal) x0) wg wu e r k * wd (ix3 e k d)
  refine Finset.sum_congr rfl fun k _ => ?_
  have el : lidx_main_v5 (ix3 e r d) k = ix3 e r k :=
    funext fun a => Fin.ext (by match a with | ⟨0, _⟩ => rfl | ⟨1, _⟩ => rfl | ⟨2, _⟩ => rfl)
  have er : ridx_main_v5 (ix3 e r d) k = ix3 e k d :=
    funext fun a => Fin.ext (by match a with | ⟨0, _⟩ => rfl | ⟨1, _⟩ => rfl | ⟨2, _⟩ => rfl)
  rw [el, er, hidden_eq]

end Cert.ReferenceIdeal.RefValue

end
-- ==== Proof.KPieces.lean ====
/-
  What one run of the kernel body leaves behind, as pure terms of what it loaded — at any float instance.

  The body runs in two cases. On the first hidden tile of an expert (case A) it caches the token block for the
  matrix unit (`k0_pay1`) in the second scratch, zeroes the accumulator (`k0_pay2`), reads both back, and leaves in
  the accumulator the zero block plus this tile's partial product (`k0_pay4`); it stores nothing into the output.
  On the second hidden tile (case B) it touches neither scratch and stores into the output block the accumulator
  plus this tile's partial product (`k0_pay5`), computed from the cached token block.

  Every load and store goes through the whole buffer at zero offsets, so each stored payload reads back as it is.
-/
import proofs.«148070_j79285096284331_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case B: the output block is the accumulator `xs0` plus the partial product of the cached tokens `xs1` with this
    tile's weight blocks. -/
theorem out_B (c : Dev nD) (i : grid0.Coords) (a2 : Memref sig .tc .vmem S1x64x2048 .f32) (h2 : a2.IsWhole) (a3 : Memref sig .tc .vmem S1x2048x512 .f32) (h3 : a3.IsWhole) (a4 : Memref sig .tc .vmem S1x2048x512 .f32) (h4 : a4.IsWhole) (a5 : Memref sig .tc .vmem S1x512x2048 .f32) (h5 : a5.IsWhole) (a6 : Memref sig .tc .vmem S1x64x2048 .f32) (h6 : a6.IsWhole) (a7 : Memref sig .tc .vmem S64x2048 .f32) (h7 : a7.IsWhole) (a8 : Memref sig .tc .vmem S64x2048 .bf16) (h8 : a8.IsWhole) (hc0 : ¬cond0_0 i) (hc1 : ¬cond0_1 i) (hc2 : cond0_2 i) (x0 : Vec F S1x64x2048 .f32) (x1 : Vec F S1x2048x512 .f32) (x2 : Vec F S1x2048x512 .f32) (x3 : Vec F S1x512x2048 .f32)
    (xs0 : Vec F S64x2048 .f32) (xs1 : Vec F S64x2048 .bf16) :
    out0_B_4 c i a2 h2 a3 h3 a4 h4 a5 h5 a6 h6 a7 h7 a8 h8 hc0 hc1 hc2 x0 x1 x2 x3 xs0 xs1 = k0_pay5 xs1 x1 x2 x3 xs0 := by
  unfold out0_B_4
  rw [View.read_writes_eq_canon _ _ _ (cover0_B_4 c i a2 h2 a3 h3 a4 h4 a5 h5 a6 h6 a7 h7 a8 h8 hc0 hc1 hc2 x0 x1 x2 x3 xs0 xs1)]
  unfold kernelRun0_B
  dsimp only
  rw [View.canon_unit_zero hz3]
  simp only [View.readAt_eq_ld, h3.read_unread, h4.read_unread, h5.read_unread, h7.read_unread, h8.read_unread,
    View.ld_unit_zero (S := S64x2048) hz2, View.ld_unit_zero (S := S1x2048x512) hz3, View.ld_unit_zero (S := S1x512x2048) hz3]

/-- Case A: the second scratch ends holding the token block as the matrix unit takes it. -/
theorem cache_A (c : Dev nD) (i : grid0.Coords) (a2 : Memref sig .tc .vmem S1x64x2048 .f32) (h2 : a2.IsWhole) (a3 : Memref sig .tc .vmem S1x2048x512 .f32) (h3 : a3.IsWhole) (a4 : Memref sig .tc .vmem S1x2048x512 .f32) (h4 : a4.IsWhole) (a5 : Memref sig .tc .vmem S1x512x2048 .f32) (h5 : a5.IsWhole) (a6 : Memref sig .tc .vmem S1x64x2048 .f32) (h6 : a6.IsWhole) (a7 : Memref sig .tc .vmem S64x2048 .f32) (h7 : a7.IsWhole) (a8 : Memref sig .tc .vmem S64x2048 .bf16) (h8 : a8.IsWhole) (hc0 : cond0_0 i) (hc1 : cond0_1 i) (hc2 : ¬cond0_2 i) (x0 : Vec F S1x64x2048 .f32) (x1 : Vec F S1x2048x512 .f32) (x2 : Vec F S1x2048x512 .f32) (x3 : Vec F S1x512x2048 .f32) :
    sout0_A_1 c i a2 h2 a3 h3 a4 h4 a5 h5 a6 h6 a7 h7 a8 h8 hc0 hc1 hc2 x0 x1 x2 x3 = k0_pay1 x0 := by
  unfold sout0_A_1
  rw [View.read_writes_eq_canon _ _ _ (scover0_A_1 c i a2 h2 a3 h3 a4 h4 a5 h5 a6 h6 a7 h7 a8 h8 hc0 hc1 hc2 x0 x1 x2 x3)]
  unfold kernelRun0_A
  dsimp only
  sl_unfold_words
  rw [View.canon_unit_zero (S := S64x2048) hz2]
  simp only [View.readAt_eq_ld, h2.read_unread, View.ld_unit_zero (S := S1x64x2048) hz3]

/-- Case A: the accumulator ends holding the zero block plus the first tile's partial product (the zero block and the
    cached tokens are read back from the stores just made). -/
theorem acc_A (c : Dev nD) (i : grid0.Coords) (a2 : Memref sig .tc .vmem S1x64x2048 .f32) (h2 : a2.IsWhole) (a3 : Memref sig .tc .vmem S1x2048x512 .f32) (h3 : a3.IsWhole) (a4 : Memref sig .tc .vmem S1x2048x512 .f32) (h4 : a4.IsWhole) (a5 : Memref sig .tc .vmem S1x512x2048 .f32) (h5 : a5.IsWhole) (a6 : Memref sig .tc .vmem S1x64x2048 .f32) (h6 : a6.IsWhole) (a7 : Memref sig .tc .vmem S64x2048 .f32) (h7 : a7.IsWhole) (a8 : Memref sig .tc .vmem S64x2048 .bf16) (h8 : a8.IsWhole) (hc0 : cond0_0 i) (hc1 : cond0_1 i) (hc2 : ¬cond0_2 i) (x0 : Vec F S1x64x2048 .f32) (x1 : Vec F S1x2048x512 .f32) (x2 : Vec F S1x2048x512 .f32) (x3 : Vec F S1x512x2048 .f32) :
    sout0_A_0 c i a2 h2 a3 h3 a4 h4 a5 h5 a6 h6 a7 h7 a8 h8 hc0 hc1 hc2 x0 x1 x2 x3 = k0_pay4 (k0_pay1 x0) x1 x2 x3 k0_pay2 := by
  unfold sout0_A_0
  rw [View.read_writes_eq_canon _ _ _ (scover0_A_0 c i a2 h2 a3 h3 a4 h4 a5 h5 a6 h6 a7 h7 a8 h8 hc0 hc1 hc2 x0 x1 x2 x3)]
  unfold kernelRun0_A
  dsimp only
  sl_unfold_words
  rw [View.canon_cons_unit_zero (S := S64x2048) hz2, View.readCov_unit_zero (S := S64x2048) a8.view hz2,
    View.readCov_unit_zero (S := S64x2048) a7.view hz2]
  simp only [View.readAt_eq_ld, h2.read_unread, h3.read_unread, h4.read_unread, h5.read_unread,
    View.ld_unit_zero (S := S1x64x2048) hz3, View.ld_unit_zero (S := S1x2048x512) hz3, View.ld_unit_zero (S := S1x512x2048) hz3]

end Cert.KernelIdeal.Pieces

end
-- ==== Proof.KPoints.lean ====
/-
  What the accumulator, the cached tokens and the output block hold after each grid point — at any float instance.

  The grid runs over (expert, hidden tile) with the tile innermost, so point `2e` is expert `e`'s first tile and point
  `2e + 1` its second. After an even point the accumulator holds the zero block plus that point's partial product and
  the cache holds that point's token block. After the odd point that follows, the output block holds that accumulator
  plus the odd point's partial product, both products computed from the cache the even point filled.
-/
import proofs.«148070_j79285096284331_2_alg».proof.Proof.KPieces

noncomputable section

open Idealize.ShloMosaic Idealize.ShloMosaic.TcCoe Idealize.SL.Sem

namespace Cert.KernelIdeal.Points

open Cert.KernelIdeal Cert.KernelIdeal.Gen

variable {F : FTy → Type} [FloatOps F]
variable (m : (ℓ : Loc nD τ sig) → Buf (Elt F) ℓ)

/-- After an even point: the accumulator and the cache. -/
theorem after_even (c : Dev nD) (t : Fin cfg0.N) (h : t.val % 2 = 0) :
    (outsAt0 m c t.val t.isLt).2.1 = k0_pay4 (k0_pay1 (iblk m c 0 t)) (iblk m c 1 t) (iblk m c 2 t) (iblk m c 3 t) k0_pay2
    ∧ (outsAt0 m c t.val t.isLt).2.2 = k0_pay1 (iblk m c 0 t) := by
  have h2 : ¬t.val % 2 = 1 := by omega
  rw [outsAt0_A m c t h h h2]
  dsimp only
  exact ⟨Pieces.acc_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h) ((hcond0_1 t).mpr h) (fun h' => h2 ((hcond0_2 t).mp h')) (iblk m c 0 t) (iblk m c 1 t) (iblk m c 2 t) (iblk m c 3 t),
    Pieces.cache_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h) ((hcond0_1 t).mpr h) (fun h' => h2 ((hcond0_2 t).mp h')) (iblk m c 0 t) (iblk m c 1 t) (iblk m c 2 t) (iblk m c 3 t)⟩

/-- After an odd point `t`, with `t'` the even point before it: the output block. -/
theorem after_odd (c : Dev nD) (t t' : Fin cfg0.N) (h : t.val % 2 = 1) (ht' : t'.val = t.val - 1) :
    (outsAt0 m c t.val t.isLt).1
      = k0_pay5 (k0_pay1 (iblk m c 0 t')) (iblk m c 1 t) (iblk m c 2 t) (iblk m c 3 t)
          (k0_pay4 (k0_pay1 (iblk m c 0 t')) (iblk m c 1 t') (iblk m c 2 t') (iblk m c 3 t') k0_pay2) := by
  have h0 : ¬t.val % 2 = 0 := by omega
  have hev : t'.val % 2 = 0 := by omega
  obtain ⟨e1, e2⟩ := after_even m c t' hev
  obtain ⟨n', hn'⟩ := t'
  obtain rfl : n' = t.val - 1 := ht'
  rw [outsAt0_B m c t h0 h0 h]
  dsimp only
  rw [Pieces.out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h' => h0 ((hcond0_0 t).mp h')) (fun h' => h0 ((hcond0_1 t).mp h')) ((hcond0_2 t).mpr h) (iblk m c 0 t) (iblk m c 1 t) (iblk m c 2 t) (iblk m c 3 t)
    (outsAt0 m c (t.val - 1) (Nat.lt_of_le_of_lt (Nat.sub_le _ _) t.isLt)).2.1 (outsAt0 m c (t.val - 1) (Nat.lt_of_le_of_lt (Nat.sub_le _ _) t.isLt)).2.2]
  exact congrArg₂ (fun a b => k0_pay5 b (iblk m c 1 t) (iblk m c 2 t) (iblk m c 3 t) a) e1 e2

end Cert.KernelIdeal.Points

end
-- ==== Proof.KPayload.lean ====
/-
  The body's arithmetic read at an index, over the extended reals.

  One hidden tile's partial product, on the blocks the body holds: with the cached token block `xb` [64, 2048], the
  gate and up weight blocks `gb`, `ub` [1, 2048, 512] and the down weight block `db` [1, 512, 2048],

    bproj xb w r k   = ∑ j, xb[r, j] · w[0, j, k]                        (a matrix product into a zero accumulator),
    bpart … r d      = ∑ k, (g · σ(g) · u)[r, k] · db[0, k, d]           (g, u the two projections, σ the logistic).

  A change of float format is the identity on extended reals and a cast that drops or adds a leading unit axis only
  renames the index, so `k0_pay3` at `(r, d)` is `bpart`; the accumulating payloads add it to what the accumulator held.
-/
import proofs.«148070_j79285096284331_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- Row `r` of the token block against column `k` of a weight block. -/
def bproj (xb : S64x2048.Idx → EReal) (w : S1x2048x512.Idx → EReal) (r : Fin 64) (k : Fin 512) : EReal :=
  ∑ j : Fin 2048, xb (ix2 r j) * w (ix3 (0 : Fin 1) j k)

/-- The gated activation of one tile at `(r, k)`. -/
def bhid (xb : S64x2048.Idx → EReal) (gb ub : S1x2048x512.Idx → EReal) (r : Fin 64) (k : Fin 512) : EReal :=
  bproj xb gb r k * Ideal.logistic (bproj xb gb r k) * bproj xb ub r k

/-- One tile's partial product at `(r, d)`. -/
def bpart (xb : S64x2048.Idx → EReal) (gb ub : S1x2048x512.Idx → EReal) (db : S1x512x2048.Idx → EReal) (r : Fin 64) (d : Fin 2048) : EReal :=
  ∑ k : Fin 512, bhid xb gb ub r k * db (ix3 (0 : Fin 1) k d)

/-! ### The two matrix products at an index -/

theorem lhs1_0 (i : S64x512.Idx) (q : dot_S64x2048_S2048x512_S64x512_1_0_0_1_n_n.contr.Idx) : (dot_S64x2048_S2048x512_S64x512_1_0_0_1_n_n.lhsIdx i q 0).val = (i 0).val := by
  unfold DotDims.lhsIdx
  rw [dif_neg (show ¬(0 : Fin S64x2048.rank) ∈ dot_S64x2048_S2048x512_S64x512_1_0_0_1_n_n.lhsBatch by decide), dif_pos (show (0 : Fin S64x2048.rank) ∈ dot_S64x2048_S2048x512_S64x512_1_0_0_1_n_n.lhsNonContracting by decide)]
  rfl
theorem rhs1_1 (i : S64x512.Idx) (q : dot_S64x2048_S2048x512_S64x512_1_0_0_1_n_n.contr.Idx) : (dot_S64x2048_S2048x512_S64x512_1_0_0_1_n_n.rhsIdx i q 1).val = (i 1).val := by
  unfold DotDims.rhsIdx
  rw [dif_neg (show ¬(1 : Fin S2048x512.rank) ∈ dot_S64x2048_S2048x512_S64x512_1_0_0_1_n_n.rhsBatch by decide), dif_pos (show (1 : Fin S2048x512.rank) ∈ dot_S64x2048_S2048x512_S64x512_1_0_0_1_n_n.rhsNonContracting by decide)]
  rfl

/-- The first matrix product (tokens × a weight tile) into the zero block: the sum over the model dimension. -/
theorem mm1_apply (l : FVec Ideal S64x2048 .bf16) (w : FVec Ideal S2048x512 .bf16) (r : Fin 64) (k : Fin 512) :
    matmul (F := Ideal) dot_S64x2048_S2048x512_S64x512_1_0_0_1_n_n none l w (constant (F := Ideal) S64x512 .f32 0x00000000#32) (ix2 r k) = ∑ j : Fin 2048, l (ix2 r j) * w (ix2 j k) := by
  refine (Ideal.matmul_constant_zero_apply dot_S64x2048_S2048x512_S64x512_1_0_0_1_n_n none l w (ix2 r k)).trans ?_
  rw [← Equiv.sum_comp (contrEquiv1 dot_S64x2048_S2048x512_S64x512_1_0_0_1_n_n 2048 rfl rfl).symm]
  refine Finset.sum_congr rfl fun j _ => ?_
  have hj := contrEquiv1_symm_val dot_S64x2048_S2048x512_S64x512_1_0_0_1_n_n 2048 rfl rfl j
  have el : dot_S64x2048_S2048x512_S64x512_1_0_0_1_n_n.lhsIdx (ix2 r k) ((contrEquiv1 dot_S64x2048_S2048x512_S64x512_1_0_0_1_n_n 2048 rfl rfl).symm j) = ix2 r j := funext fun a => Fin.ext (by
    match a with
    | ⟨0, _⟩ => exact lhs1_0 _ _
    | ⟨1, _⟩ => exact (dot_S64x2048_S2048x512_S64x512_1_0_0_1_n_n.lhsIdx_val_of_single rfl _ _).trans hj)
  have er : dot_S64x2048_S2048x512_S64x512_1_0_0_1_n_n.rhsIdx (ix2 r k) ((contrEquiv1 dot_S64x2048_S2048x512_S64x512_1_0_0_1_n_n 2048 rfl rfl).symm j) = ix2 j k := funext fun a => Fin.ext (by
    match a with
    | ⟨0, _⟩ => exact (dot_S64x2048_S2048x512_S64x512_1_0_0_1_n_n.rhsIdx_val_of_single rfl _ _).trans hj
    | ⟨1, _⟩ => exact rhs1_1 _ _)
  rw [el, er]

theorem lhs2_0 (i : S64x2048.Idx) (q : dot_S64x512_S512x2048_S64x2048_1_0_0_1_n_n.contr.Idx) : (dot_S64x512_S512x2048_S64x2048_1_0_0_1_n_n.lhsIdx i q 0).val = (i 0).val := by
  unfold DotDims.lhsIdx
  rw [dif_neg (show ¬(0 : Fin S64x512.rank) ∈ dot_S64x512_S512x2048_S64x2048_1_0_0_1_n_n.lhsBatch by decide), dif_pos (show (0 : Fin S64x512.rank) ∈ dot_S64x512_S512x2048_S64x2048_1_0_0_1_n_n.lhsNonContracting by decide)]
  rfl
theorem rhs2_1 (i : S64x2048.Idx) (q : dot_S64x512_S512x2048_S64x2048_1_0_0_1_n_n.contr.Idx) : (dot_S64x512_S512x2048_S64x2048_1_0_0_1_n_n.rhsIdx i q 1).val = (i 1).val := by
  unfold DotDims.rhsIdx
  rw [dif_neg (show ¬(1 : Fin S512x2048.rank) ∈ dot_S64x512_S512x2048_S64x2048_1_0_0_1_n_n.rhsBatch by decide), dif_pos (show (1 : Fin S512x2048.rank) ∈ dot_S64x512_S512x2048_S64x2048_1_0_0_1_n_n.rhsNonContracting by decide)]
  rfl

/-- The second matrix product (activations × the down tile) into the zero block: the sum over the tile's hidden units. -/
theorem mm2_apply (l : FVec Ideal S64x512 .bf16) (w : FVec Ideal S512x2048 .bf16) (r : Fin 64) (d : Fin 2048) :
    matmul (F := Ideal) dot_S64x512_S512x2048_S64x2048_1_0_0_1_n_n none l w (constant (F := Ideal) S64x2048 .f32 0x00000000#32) (ix2 r d) = ∑ k : Fin 512, l (ix2 r k) * w (ix2 k d) := by
  refine (Ideal.matmul_constant_zero_apply dot_S64x512_S512x2048_S64x2048_1_0_0_1_n_n none l w (ix2 r d)).trans ?_
  rw [← Equiv.sum_comp (contrEquiv1 dot_S64x512_S512x2048_S64x2048_1_0_0_1_n_n 512 rfl rfl).symm]
  refine Finset.sum_congr rfl fun k _ => ?_
  have hk := contrEquiv1_symm_val dot_S64x512_S512x2048_S64x2048_1_0_0_1_n_n 512 rfl rfl k
  have el : dot_S64x512_S512x2048_S64x2048_1_0_0_1_n_n.lhsIdx (ix2 r d) ((contrEquiv1 dot_S64x512_S512x2048_S64x2048_1_0_0_1_n_n 512 rfl rfl).symm k) = ix2 r k := funext fun a => Fin.ext (by
    match a with
    | ⟨0, _⟩ => exact lhs2_0 _ _
    | ⟨1, _⟩ => exact (dot_S64x512_S512x2048_S64x2048_1_0_0_1_n_n.lhsIdx_val_of_single rfl _ _).trans hk)
  have er : dot_S64x512_S512x2048_S64x2048_1_0_0_1_n_n.rhsIdx (ix2 r d) ((contrEquiv1 dot_S64x512_S512x2048_S64x2048_1_0_0_1_n_n 512 rfl rfl).symm k) = ix2 k d := funext fun a => Fin.ext (by
    match a with
    | ⟨0, _⟩ => exact (dot_S64x512_S512x2048_S64x2048_1_0_0_1_n_n.rhsIdx_val_of_single rfl _ _).trans hk
    | ⟨1, _⟩ => exact rhs2_1 _ _)
  rw [el, er]

/-! ### The payloads -/

/-- A projection inside the body: the cached tokens against a weight block cast to [2048, 512] and rounded for the matrix unit. -/
theorem proj_apply (v3 : FVec Ideal S64x2048 .bf16) (w : FVec Ideal S1x2048x512 .f32) (r : Fin 64) (k : Fin 512) :
    matmul (F := Ideal) dot_S64x2048_S2048x512_S64x512_1_0_0_1_n_n none v3 (truncf .bf16 (shapeCast S2048x512 w shapeCasts_S1x2048x512_S2048x512) bitsLt_bf16_f32)
      (constant (F := Ideal) S64x512 .f32 0x00000000#32) (ix2 r k) = bproj v3 w r k := by
  refine (mm1_apply v3 _ r k).trans ?_
  unfold bproj
  refine Finset.sum_congr rfl fun j _ => ?_
  refine congrArg (v3 (ix2 r j) * ·) ?_
  exact shapeCast_1ab_ab_apply w shapeCasts_S1x2048x512_S2048x512 j k

/-- One tile's partial product: `k0_pay3` at `(r, d)`. -/
theorem pay3_apply (v3 : FVec Ideal S64x2048 .bf16) (v4 v7 : FVec Ideal S1x2048x512 .f32) (v16 : FVec Ideal S1x512x2048 .f32)
    (r : Fin 64) (d : Fin 2048) :
    k0_pay3 (F := Ideal) v3 v4 v7 v16 (ix2 r d) = bpart v3 v4 v7 v16 r d := by
  unfold k0_pay3
  refine (mm2_apply _ _ r d).trans ?_
  unfold bpart
  refine Finset.sum_congr rfl fun k _ => ?_
  have hh : (truncf .bf16 (mulf (mulf
        (matmul (F := Ideal) dot_S64x2048_S2048x512_S64x512_1_0_0_1_n_n none v3 (truncf .bf16 (shapeCast S2048x512 v4 shapeCasts_S1x2048x512_S2048x512) bitsLt_bf16_f32) (constant (F := Ideal) S64x512 .f32 0x00000000#32))
        (logistic (matmul (F := Ideal) dot_S64x2048_S2048x512_S64x512_1_0_0_1_n_n none v3 (truncf .bf16 (shapeCast S2048x512 v4 shapeCasts_S1x2048x512_S2048x512) bitsLt_bf16_f32) (constant (F := Ideal) S64x512 .f32 0x00000000#32))))
        (matmul (F := Ideal) dot_S64x2048_S2048x512_S64x512_1_0_0_1_n_n none v3 (truncf .bf16 (shapeCast S2048x512 v7 shapeCasts_S1x2048x512_S2048x512) bitsLt_bf16_f32) (constant (F := Ideal) S64x512 .f32 0x00000000#32)))
        bitsLt_bf16_f32 : FVec Ideal S64x512 .bf16) (ix2 r k) = bhid v3 v4 v7 r k := by
    show _ * Ideal.logistic _ * _ = _
    rw [proj_apply v3 v4 r k, proj_apply v3 v7 r k]
    rfl
  have hd : (truncf .bf16 (shapeCast S512x2048 v16 shapeCasts_S1x512x2048_S512x2048) bitsLt_bf16_f32 : FVec Ideal S512x2048 .bf16) (ix2 k d)
      = v16 (ix3 (0 : Fin 1) k d) := shapeCast_1ab_ab_apply v16 shapeCasts_S1x512x2048_S512x2048 k d
  exact congrArg₂ (· * ·) hh hd

/-- The first tile's accumulation: the accumulator's contents plus the tile's partial product. -/
theorem pay4_apply (v3 : FVec Ideal S64x2048 .bf16) (v4 v7 : FVec Ideal S1x2048x512 .f32) (v16 : FVec Ideal S1x512x2048 .f32)
    (v26 : FVec Ideal S64x2048 .f32) (r : Fin 64) (d : Fin 2048) :
    k0_pay4 (F := Ideal) v3 v4 v7 v16 v26 (ix2 r d) = v26 (ix2 r d) + bpart v3 v4 v7 v16 r d := by
  unfold k0_pay4
  rw [shapeCast_self]
  exact congrArg (v26 (ix2 r d) + ·) (pay3_apply v3 v4 v7 v16 r d)

/-- The last tile's store: the same sum, written as a [1, 64, 2048] block. -/
theorem pay5_apply (v3 : FVec Ideal S64x2048 .bf16) (v4 v7 : FVec Ideal S1x2048x512 .f32) (v16 : FVec Ideal S1x512x2048 .f32)
    (v26 : FVec Ideal S64x2048 .f32) (u : Fin 1) (r : Fin 64) (d : Fin 2048) :
    k0_pay5 (F := Ideal) v3 v4 v7 v16 v26 (ix3 u r d) = v26 (ix2 r d) + bpart v3 v4 v7 v16 r d := by
  unfold k0_pay5
  refine (shapeCast_ab_1ab_apply _ shapeCasts_S64x2048_S1x64x2048 u r d).trans ?_
  exact congrArg (v26 (ix2 r d) + ·) (pay3_apply v3 v4 v7 v16 r d)

/-- The cached token block at `(r, j)` is the token block at `(0, r, j)`. -/
theorem pay1_apply (v26 : FVec Ideal S1x64x2048 .f32) (r : Fin 64) (j : Fin 2048) :
    k0_pay1 (F := Ideal) v26 (ix2 r j) = v26 (ix3 (0 : Fin 1) r j) := by
  unfold k0_pay1
  rw [shapeCast_self]
  exact shapeCast_1ab_ab_apply v26 shapeCasts_S1x64x2048_S64x2048 r j

/-- The zero block is zero everywhere. -/
theorem pay2_apply (p : S64x2048.Idx) : k0_pay2 (F := Ideal) p = 0 := by
  unfold k0_pay2
  rw [shapeCast_self]
  exact Ideal.ofBits_zero_f32

end Cert.KernelIdeal.Payload

end
-- ==== Proof.KBridge.lean ====
/-
  A tile's partial product on blocks is a half of the whole contraction.

  If the token block is row block `e` of the token array, the gate and up blocks are the columns `sel k` of expert
  `e`'s weights and the down block the rows `sel k` of expert `e`'s down weights (`sel` the tile's 512 hidden units),
  then the tile's partial product at `(r, d)` is the sum of `hidden · down` over those 512 hidden units.
-/
import proofs.«148070_j79285096284331_2_alg».proof.Proof.KPayload
import proofs.«148070_j79285096284331_2_alg».proof.Proof.Spec

noncomputable section

open Idealize.ShloMosaic Idealize.ShloMosaic.ValueIdx

namespace Cert.KernelIdeal.Payload

open Cert.KernelIdeal Cert.Moe

theorem bpart_eq (X : SX.Idx → EReal) (WG WU : SW.Idx → EReal) (WD : SD.Idx → EReal) (e : Fin 64) (sel : Fin 512 → Fin 1024)
    (xb : S64x2048.Idx → EReal) (gb ub : S1x2048x512.Idx → EReal) (db : S1x512x2048.Idx → EReal)
    (hx : ∀ (r : Fin 64) (j : Fin 2048), xb (ix2 r j) = X (ix3 e r j))
    (hg : ∀ (j : Fin 2048) (k : Fin 512), gb (ix3 (0 : Fin 1) j k) = WG (ix3 e j (sel k)))
    (hu : ∀ (j : Fin 2048) (k : Fin 512), ub (ix3 (0 : Fin 1) j k) = WU (ix3 e j (sel k)))
    (hd : ∀ (k : Fin 512) (d : Fin 2048), db (ix3 (0 : Fin 1) k d) = WD (ix3 e (sel k) d))
    (r : Fin 64) (d : Fin 2048) :
    bpart xb gb ub db r d = ∑ k : Fin 512, Moe.hidden X WG WU e r (sel k) * WD (ix3 e (sel k) d) := by
  have hp : ∀ (w : S1x2048x512.Idx → EReal) (W : SW.Idx → EReal),
      (∀ (j : Fin 2048) (k : Fin 512), w (ix3 (0 : Fin 1) j k) = W (ix3 e j (sel k))) →
      ∀ k : Fin 512, bproj xb w r k = Moe.proj X W e r (sel k) := fun w W hw k =>
    Finset.sum_congr rfl fun j _ => by rw [hx, hw]
  unfold bpart bhid Moe.hidden
  exact Finset.sum_congr rfl fun k _ => by rw [hp gb WG hg k, hp ub WU hu k, hd]

end Cert.KernelIdeal.Payload

end
-- ==== Proof.KBlocks.lean ====
/-
  The output array after the run is `Moe.out` of the arrays the region finds — over the extended reals.

  Window by window, the block at grid point `t` (expert `e = t / 2`, hidden tile `h = t % 2`) is: the token rows of
  expert `e`; columns `512 h … 512 h + 511` of expert `e`'s gate and up weights; rows `512 h … 512 h + 511` of expert
  `e`'s down weights; and for the output, rows of expert `e`. A block's element sits in its array at block index ×
  block size + its own coordinate on every axis.

  So what the odd point `2e + 1` writes back at `(r, d)` is `(0 + lower half sum) + upper half sum` of
  `hidden · down`, which is the whole sum over the 1024 hidden units (`Moe.out_eq_halves`); the 64 odd points' blocks
  tile the output array.
-/
import proofs.«148070_j79285096284331_2_alg».proof.Proof.KPoints
import proofs.«148070_j79285096284331_2_alg».proof.Proof.KBridge

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Payload Cert.Moe

variable (m : (ℓ : Loc nD τ sig) → Buf (Elt Ideal) ℓ)

/-- The arrays as the region finds them: the tokens as [64, 64, 2048], and the three weight arrays. -/
def X (c : Dev nD) : SX.Idx → EReal := V m c main_v0
def WG (c : Dev nD) : SW.Idx → EReal := V m c main_arg2
def WU (c : Dev nD) : SW.Idx → EReal := V m c main_arg3
def WD (c : Dev nD) : SD.Idx → EReal := V m c main_arg4

/-- The input blocks at a point, each at its literal block shape. -/
def B0 (c : Dev nD) (t : Fin cfg0.N) : FVec Ideal S1x64x2048 .f32 := iblk m c 0 t
def B1 (c : Dev nD) (t : Fin cfg0.N) : FVec Ideal S1x2048x512 .f32 := iblk m c 1 t
def B2 (c : Dev nD) (t : Fin cfg0.N) : FVec Ideal S1x2048x512 .f32 := iblk m c 2 t
def B3 (c : Dev nD) (t : Fin cfg0.N) : FVec Ideal S1x512x2048 .f32 := iblk m c 3 t

/-- The printed index maps, decided over the grid: expert `t / 2` on the leading axis, tile `t % 2` on the hidden axis. -/
theorem idx_facts : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = 0 ∧ win0_1.index t (2 : Fin 3) = t.val % 2)
    ∧ (win0_2.index t (0 : Fin 3) = t.val / 2 ∧ win0_2.index t (1 : Fin 3) = 0 ∧ win0_2.index t (2 : Fin 3) = t.val % 2)
    ∧ (win0_3.index t (0 : Fin 3) = t.val / 2 ∧ win0_3.index t (1 : Fin 3) = t.val % 2 ∧ win0_3.index t (2 : Fin 3) = 0)
    ∧ (win0_4.index t (0 : Fin 3) = t.val / 2 ∧ win0_4.index t (1 : Fin 3) = 0 ∧ win0_4.index t (2 : Fin 3) = 0) :=
  (by decide +kernel : ∀ t : Fin grid0.N, _)

/-- The token block at point `t` is row block `e = t / 2` of the tokens. -/
theorem B0_apply (c : Dev nD) (t : Fin cfg0.N) (e : Fin 64) (he : t.val / 2 = e.val) (r : Fin 64) (j : Fin 2048) :
    B0 m c t (ix3 (0 : Fin 1) r j) = X m c (ix3 e r j) := by
  obtain ⟨⟨e0, e1, e2⟩, -⟩ := idx_facts t
  unfold B0 X iblk
  rw [View.read_apply]
  show V m c main_v0 (((cfg0.win 0).blk t).view.emb (ix3 (0 : Fin 1) r j)) = V m c main_v0 (ix3 e r j)
  refine congrArg (V m c main_v0) ?_
  funext a; apply Fin.ext
  match a with
  | ⟨0, _⟩ => show win0_0.index t (0 : Fin 3) * 1 + 1 * 0 = e.val; omega
  | ⟨1, _⟩ => show win0_0.index t (1 : Fin 3) * 64 + 1 * r.val = r.val; omega
  | ⟨2, _⟩ => show win0_0.index t (2 : Fin 3) * 2048 + 1 * j.val = j.val; omega

/-- The gate block at point `t`: columns `sel k = 512 (t % 2) + k` of expert `e`'s gate weights. -/
theorem B1_apply (c : Dev nD) (t : Fin cfg0.N) (e : Fin 64) (he : t.val / 2 = e.val) (sel : Fin 512 → Fin 1024)
    (hsel : ∀ k, (sel k).val = 512 * (t.val % 2) + k.val) (j : Fin 2048) (k : Fin 512) :
    B1 m c t (ix3 (0 : Fin 1) j k) = WG m c (ix3 e j (sel k)) := by
  obtain ⟨-, ⟨e0, e1, e2⟩, -⟩ := idx_facts t
  unfold B1 WG iblk
  rw [View.read_apply]
  show V m c main_arg2 (((cfg0.win 1).blk t).view.emb (ix3 (0 : Fin 1) j k)) = V m c main_arg2 (ix3 e j (sel k))
  refine congrArg (V m c main_arg2) ?_
  funext a; apply Fin.ext
  match a with
  | ⟨0, _⟩ => show win0_1.index t (0 : Fin 3) * 1 + 1 * 0 = e.val; omega
  | ⟨1, _⟩ => show win0_1.index t (1 : Fin 3) * 2048 + 1 * j.val = j.val; omega
  | ⟨2, _⟩ => show win0_1.index t (2 : Fin 3) * 512 + 1 * k.val = (sel k).val; rw [hsel k]; omega

/-- The up block at point `t`: the same columns of expert `e`'s up weights. -/
theorem B2_apply (c : Dev nD) (t : Fin cfg0.N) (e : Fin 64) (he : t.val / 2 = e.val) (sel : Fin 512 → Fin 1024)
    (hsel : ∀ k, (sel k).val = 512 * (t.val % 2) + k.val) (j : Fin 2048) (k : Fin 512) :
    B2 m c t (ix3 (0 : Fin 1) j k) = WU m c (ix3 e j (sel k)) := by
  obtain ⟨-, -, ⟨e0, e1, e2⟩, -⟩ := idx_facts t
  unfold B2 WU iblk
  rw [View.read_apply]
  show V m c main_arg3 (((cfg0.win 2).blk t).view.emb (ix3 (0 : Fin 1) j k)) = V m c main_arg3 (ix3 e j (sel k))
  refine congrArg (V m c main_arg3) ?_
  funext a; apply Fin.ext
  match a with
  | ⟨0, _⟩ => show win0_2.index t (0 : Fin 3) * 1 + 1 * 0 = e.val; omega
  | ⟨1, _⟩ => show win0_2.index t (1 : Fin 3) * 2048 + 1 * j.val = j.val; omega
  | ⟨2, _⟩ => show win0_2.index t (2 : Fin 3) * 512 + 1 * k.val = (sel k).val; rw [hsel k]; omega

/-- The down block at point `t`: rows `sel k` of expert `e`'s down weights. -/
theorem B3_apply (c : Dev nD) (t : Fin cfg0.N) (e : Fin 64) (he : t.val / 2 = e.val) (sel : Fin 512 → Fin 1024)
    (hsel : ∀ k, (sel k).val = 512 * (t.val % 2) + k.val) (k : Fin 512) (d : Fin 2048) :
    B3 m c t (ix3 (0 : Fin 1) k d) = WD m c (ix3 e (sel k) d) := by
  obtain ⟨-, -, -, ⟨e0, e1, e2⟩, -⟩ := idx_facts t
  unfold B3 WD iblk
  rw [View.read_apply]
  show V m c main_arg4 (((cfg0.win 3).blk t).view.emb (ix3 (0 : Fin 1) k d)) = V m c main_arg4 (ix3 e (sel k) d)
  refine congrArg (V m c main_arg4) ?_
  funext a; apply Fin.ext
  match a with
  | ⟨0, _⟩ => show win0_3.index t (0 : Fin 3) * 1 + 1 * 0 = e.val; omega
  | ⟨1, _⟩ => show win0_3.index t (1 : Fin 3) * 512 + 1 * k.val = (sel k).val; rw [hsel k]; omega
  | ⟨2, _⟩ => show win0_3.index t (2 : Fin 3) * 2048 + 1 * d.val = d.val; omega

/-- The output block after an odd point, over the named input blocks. -/
theorem after_odd (c : Dev nD) (t t' : Fin cfg0.N) (h : t.val % 2 = 1) (ht' : t'.val = t.val - 1) :
    ((outsAt0 m c t.val t.isLt).1 : FVec Ideal S1x64x2048 .f32)
      = k0_pay5 (F := Ideal) (k0_pay1 (F := Ideal) (B0 m c t')) (B1 m c t) (B2 m c t) (B3 m c t)
          (k0_pay4 (F := Ideal) (k0_pay1 (F := Ideal) (B0 m c t')) (B1 m c t') (B2 m c t') (B3 m c t') (k0_pay2 (F := Ideal))) :=
  Points.after_odd m c t t' h ht'

/-- What the output block holds after the odd point `t = 2e + 1`, at `(r, d)`: the whole contraction for expert `e`. -/
theorem after_odd_apply (c : Dev nD) (t : Fin cfg0.N) (hodd : t.val % 2 = 1) (e : Fin 64) (he : t.val / 2 = e.val)
    (u : Fin 1) (r : Fin 64) (d : Fin 2048) :
    ((outsAt0 m c t.val t.isLt).1 : FVec Ideal S1x64x2048 .f32) (ix3 u r d)
      = Moe.out (X m c) (WG m c) (WU m c) (WD m c) (ix3 e r d) := by
  have hN : cfg0.N = 128 := N_0
  have hlt : t.val - 1 < cfg0.N := by have := t.isLt; omega
  have he' : (⟨t.val - 1, hlt⟩ : Fin cfg0.N).val / 2 = e.val := by show (t.val - 1) / 2 = e.val; omega
  have hlo : ∀ k : Fin 512, (lo k).val = 512 * ((⟨t.val - 1, hlt⟩ : Fin cfg0.N).val % 2) + k.val := fun k => by
    show k.val = 512 * ((t.val - 1) % 2) + k.val; omega
  have hhi : ∀ k : Fin 512, (hi k).val = 512 * (t.val % 2) + k.val := fun k => by
    show 512 + k.val = 512 * (t.val % 2) + k.val; omega
  have hx : ∀ (r : Fin 64) (j : Fin 2048), k0_pay1 (F := Ideal) (B0 m c ⟨t.val - 1, hlt⟩) (ix2 r j) = X m c (ix3 e r j) := fun r j =>
    (pay1_apply (B0 m c ⟨t.val - 1, hlt⟩) r j).trans (B0_apply m c ⟨t.val - 1, hlt⟩ e he' r j)
  rw [after_odd m c t ⟨t.val - 1, hlt⟩ hodd rfl]
  refine (pay5_apply _ _ _ _ _ u r d).trans ?_
  rw [pay4_apply, pay2_apply, out_eq_halves]
  rw [bpart_eq (X m c) (WG m c) (WU m c) (WD m c) e lo _ _ _ _ hx
      (B1_apply m c ⟨t.val - 1, hlt⟩ e he' lo hlo) (B2_apply m c ⟨t.val - 1, hlt⟩ e he' lo hlo) (B3_apply m c ⟨t.val - 1, hlt⟩ e he' lo hlo) r d,
    bpart_eq (X m c) (WG m c) (WU m c) (WD m c) e hi _ _ _ _ hx
      (B1_apply m c t e he hi hhi) (B2_apply m c t e he hi hhi) (B3_apply m c t e he hi hhi) r d]

end Cert.KernelIdeal.KValue

end
-- ==== Proof.KRun.lean ====
/-
  The idealized kernel's run, read: its result is `Moe.out` of the argument arrays, reshaped.

  Each odd grid point writes back one expert's [64, 2048] rows, and the 64 odd points' blocks tile the [64, 64, 2048]
  output array, so after the region that array is `Moe.out` of what the region found. Around the region the program
  only reshapes: the tokens from [4096, 2048] to [64, 64, 2048] before it, the output back to [4096, 2048] after it.
-/
import proofs.«148070_j79285096284331_2_alg».proof.Proof.KBlocks
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Payload Cert.Moe

variable (m : (ℓ : Loc nD τ sig) → Buf (Elt Ideal) ℓ) (ρ : Dev nD → PrngReg)

/-- The output array the region leaves: `Moe.out` of the arrays it found. -/
def G (c : Dev nD) : SX.Idx → EReal := Moe.out (X m c) (WG m c) (WU m c) (WD m c)

/-- WHAT A FLUSHING POINT WRITES BACK is its block of `G`: the flushing points are the odd ones, and point `2e + 1`'s
    block is expert `e`'s rows. -/
theorem flushed_eq (c : Dev nD) (t : Fin cfg0.N) (hf : (cfg0.win 4).flush t = true) :
    (dats m 0 c).flushed 4 t = ((cfg0.win 4).blk t).view.read (Elt Ideal) (G m c) := by
  have hodd : t.val % 2 = 1 := (flush0_4 t).mp hf
  have hN : cfg0.N = 128 := N_0
  have hlt : t.val / 2 < 64 := by have := t.isLt; omega
  obtain ⟨-, -, -, -, ⟨e0, e1, e2⟩⟩ := idx_facts t
  show (cfg0.win 4).cut (grid0.coords t) ((dats m 0 c).after 4 t) = _
  rw [after0_4]
  funext y
  show ((outsAt0 m c t.val t.isLt).1 : FVec Ideal S1x64x2048 .f32) y = G m c (((cfg0.win 4).blk t).view.emb y)
  have hy0 : (y 0).val < 1 := (y 0).isLt
  have hemb : ((cfg0.win 4).blk t).view.emb y = ix3 (⟨t.val / 2, hlt⟩ : Fin 64) (y 1) (y 2) := by
    funext a; apply Fin.ext
    match a with
    | ⟨0, _⟩ => show win0_4.index t (0 : Fin 3) * 1 + 1 * (y 0).val = t.val / 2; omega
    | ⟨1, _⟩ => show win0_4.index t (1 : Fin 3) * 64 + 1 * (y 1).val = (y 1).val; omega
    | ⟨2, _⟩ => show win0_4.index t (2 : Fin 3) * 2048 + 1 * (y 2).val = (y 2).val; omega
  refine (congrArg ((outsAt0 m c t.val t.isLt).1 : FVec Ideal S1x64x2048 .f32) (eq_ix3 y)).trans ?_
  refine (after_odd_apply m c t hodd ⟨t.val / 2, hlt⟩ rfl (y 0) (y 1) (y 2)).trans ?_
  unfold G
  exact congrArg (Moe.out (X m c) (WG m c) (WU m c) (WD m c)) hemb.symm

/-- An index of the output array is in point `t`'s block iff each coordinate is in the block's range on its axis. -/
theorem mem_blk (t : Fin cfg0.N) (i : S64x64x2048.Idx) :
    i ∈ ((cfg0.win 4).blk t).view.set ↔ ∀ a : Fin 3, win0_4.index t a * S1x64x2048.size a ≤ (i a).val ∧ (i a).val < win0_4.index t a * S1x64x2048.size a + S1x64x2048.size a := by
  show i ∈ ((View.whole main_v1).slice (win0_4.rect t)).set ↔ _
  rw [View.set_slice_whole, Rect.mem_set_unit]
  exact Iff.rfl

/-- Every index of the output array is in the block of a flushing point: row block `e` in point `2e + 1`'s. -/
theorem cover (i : S64x64x2048.Idx) : ∃ t : Fin cfg0.N, (cfg0.win 4).flush t = true ∧ i ∈ ((cfg0.win 4).blk t).view.set := by
  have hN : cfg0.N = 128 := N_0
  have h0 : (i 0).val < 64 := (i 0).isLt
  have h1 : (i 1).val < 64 := (i 1).isLt
  have h2 : (i 2).val < 2048 := (i 2).isLt
  have hlt : 2 * (i 0).val + 1 < cfg0.N := by omega
  obtain ⟨-, -, -, -, ⟨e0, e1, e2⟩⟩ := idx_facts ⟨2 * (i 0).val + 1, hlt⟩
  have e0' : win0_4.index ⟨2 * (i 0).val + 1, hlt⟩ (0 : Fin 3) = (2 * (i 0).val + 1) / 2 := e0
  refine ⟨⟨2 * (i 0).val + 1, hlt⟩, (flush0_4 _).mpr (by show (2 * (i 0).val + 1) % 2 = 1; omega), ?_⟩
  rw [mem_blk]
  intro a
  match a with
  | ⟨0, _⟩ => show win0_4.index ⟨2 * (i 0).val + 1, hlt⟩ (0 : Fin 3) * 1 ≤ (i 0).val ∧ (i 0).val < win0_4.index ⟨2 * (i 0).val + 1, hlt⟩ (0 : Fin 3) * 1 + 1; omega
  | ⟨1, _⟩ => show win0_4.index ⟨2 * (i 0).val + 1, hlt⟩ (1 : Fin 3) * 64 ≤ (i 1).val ∧ (i 1).val < win0_4.index ⟨2 * (i 0).val + 1, hlt⟩ (1 : Fin 3) * 64 + 64; omega
  | ⟨2, _⟩ => show win0_4.index ⟨2 * (i 0).val + 1, hlt⟩ (2 : Fin 3) * 2048 ≤ (i 2).val ∧ (i 2).val < win0_4.index ⟨2 * (i 0).val + 1, hlt⟩ (2 : Fin 3) * 2048 + 2048; omega

/-- THE OUTPUT ARRAY after the region is `G`. -/
theorem final (c : Dev nD) : (dats m 0 c).arrAt 4 cfg0.N = G m c :=
  (dats m 0 c).arrAt_eq_of_cover 4 (G m c) (fun t hf => flushed_eq m c t hf) cover

/-- The tokens as the region finds them: the argument reshaped to [64, 64, 2048] by the one host operation before it. -/
theorem X_eq (c : Dev nD) :
    X m c = shapeCast S64x64x2048 (m ((c.tc : Thread nD τ).loc main_arg0)) shapeCasts_S4096x2048_S64x64x2048 := by
  unfold X
  show StableHlo.after hostOps0 (fun b => m (c, b)) (Proc.devRef .tc main_v0) = _
  after_results
  rfl

theorem WG_eq (c : Dev nD) : WG m c = m ((c.tc : Thread nD τ).loc main_arg2) := V_main_arg2 m c
theorem WU_eq (c : Dev nD) : WU m c = m ((c.tc : Thread nD τ).loc main_arg3) := V_main_arg3 m c
theorem WD_eq (c : Dev nD) : WD m c = m ((c.tc : Thread nD τ).loc main_arg4) := V_main_arg4 m c

/-- The program's result: the one host operation after the region reshapes the output array to [4096, 2048]. -/
theorem tail_eq (c : Dev nD) :
    Pipeline.afterTail₀ cfgs (dats m) 0 (V0 m) [hostOps1] c main_v2
      = shapeCast S4096x2048 ((dats m 0 c).arrAt 4 cfg0.N) shapeCasts_S64x64x2048_S4096x2048 := by
  unfold Pipeline.afterTail₀
  show StableHlo.after hostOps1 _ (Proc.devRef .tc main_v2) = _
  after_results
  funext i
  exact congrFun (congrArg (fun a => shapeCast S4096x2048 a shapeCasts_S64x64x2048_S4096x2048)
    (Pipeline.withArrays_arr (cfgs 0).spec launch0.win.arr_inj c (V0 m c) (fun w => (dats m 0 c).arrAt w (cfgs 0).N) 4)) i

/-- The program's result as a function of the launch memory: the tokens reshaped, `Moe.out`, reshaped back. -/
def result (c : Dev nD) : Buf (Elt Ideal) ((c.tc : Thread nD τ).loc main_v2) :=
  shapeCast S4096x2048 (Moe.out (shapeCast S64x64x2048 (m ((c.tc : Thread nD τ).loc main_arg0)) shapeCasts_S4096x2048_S64x64x2048)
    (m ((c.tc : Thread nD τ).loc main_arg2)) (m ((c.tc : Thread nD τ).loc main_arg3)) (m ((c.tc : Thread nD τ).loc main_arg4)))
    shapeCasts_S64x64x2048_S4096x2048

/-- The tail's result is `result`. -/
theorem tail_result (c : Dev nD) :
    Pipeline.afterTail₀ cfgs (dats m) 0 (V0 m) [hostOps1] c main_v2 = result m c := by
  rw [tail_eq, final]
  unfold G result
  rw [X_eq, WG_eq, WU_eq, WD_eq]

/-- THE RUN, READ: every weakly fair execution ends with the result at `result` and the arguments unchanged. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v2 (Pipeline.mem_restRefs_of main_v2 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.KValue

end
-- ==== Proof.lean ====
/-
  The certificate of a mixture-of-experts feed-forward kernel against its einsum reference.

  Both programs compute, for each of 64 experts, `out = (silu(x · W_gate) ⊙ (x · W_up)) · W_down` on that expert's 64
  token rows (`Cert.Moe.out`, Proof/Spec.lean). The reference does it with three batched contractions over the whole
  hidden dimension of 1024. The kernel walks a grid of (expert, hidden tile) with two tiles of 512 hidden units per
  expert: on the first tile it zeroes an accumulator and adds the tile's partial product, on the second it stores the
  accumulator plus the second partial product. Over the extended reals, where a change of float format is the identity,
  the kernel's result at an index is `(0 + lower half sum) + upper half sum`, which is the reference's whole sum by
  commutativity and associativity of addition alone; the logistic function inside silu is one function on both sides.
  No finiteness of the inputs is used.

  The modules: Spec (the function and the split of the sum), RefValue (the reference is that function), KPieces and
  KPoints (what the body leaves after each grid point, at any float instance), KPayload and KBridge (the body's
  arithmetic at an index), KBlocks and KRun (the blocks, the output array after the region, the run).
-/
import proofs.«148070_j79285096284331_2_alg».proof.Defs
import proofs.«148070_j79285096284331_2_alg».proof.Proof.Gen.Kernel
import proofs.«148070_j79285096284331_2_alg».proof.Proof.Gen.Kernel.Frame
import proofs.«148070_j79285096284331_2_alg».proof.Proof.Gen.KernelIdeal
import proofs.«148070_j79285096284331_2_alg».proof.Proof.Gen.KernelIdeal.Frame
import proofs.«148070_j79285096284331_2_alg».proof.Proof.Gen.ReferenceIdeal
import proofs.«148070_j79285096284331_2_alg».proof.Proof.Gen.ReferenceIdeal.Run
import proofs.«148070_j79285096284331_2_alg».proof.Proof.Gen.ReferenceIdeal.Read
import proofs.«148070_j79285096284331_2_alg».proof.Proof.Gen.Pre_finite_inputs
import proofs.«148070_j79285096284331_2_alg».proof.Proof.RefValue
import proofs.«148070_j79285096284331_2_alg».proof.Proof.KRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at `Moe.out` of the reshaped tokens and the three weight arrays, reshaped to [4096, 2048]. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq]
  unfold Cert.ReferenceIdeal.Read.val_main_v6
  rw [Cert.ReferenceIdeal.RefValue.ref_eq_out]
  unfold Cert.ReferenceIdeal.Read.val_main_v0 Cert.KernelIdeal.KValue.result
  rw [(hagree c).1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
